-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x1024 : Shape := ⟨2, ![8192, 1024]⟩
abbrev S2048x2048 : Shape := ⟨2, ![2048, 2048]⟩
abbrev S1024x2048 : Shape := ⟨2, ![1024, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_arg4 : FVec F S2048x2048 .f32) (main_arg5 : FVec F S1024x2048 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  main_v28

def fn {F : FTy → Type} [FloatOps F] (main_arg0 : FVec F S8192x2048 .f32) (main_arg1 : FVec F S8192x1024 .f32) (main_arg2 : FVec F S2048x2048 .f32) (main_arg3 : FVec F S1024x2048 .f32) (main_arg4 : FVec F S2048x2048 .f32) (main_arg5 : FVec F S1024x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_v13 main_v16
-- ==== Kernel.lean ====
abbrev S8192x2048 : Shape := ⟨2, ![8192, 2048]⟩
abbrev S8192x1024 : Shape := ⟨2, ![8192, 1024]⟩
abbrev S2048x2048 : Shape := ⟨2, ![2048, 2048]⟩
abbrev S1024x2048 : Shape := ⟨2, ![1024, 2048]⟩
abbrev S512x2048 : Shape := ⟨2, ![512, 2048]⟩
abbrev S2048x512 : Shape := ⟨2, ![2048, 512]⟩
abbrev S512x512 : Shape := ⟨2, ![512, 512]⟩
abbrev S512x1024 : Shape := ⟨2, ![512, 1024]⟩
abbrev S1024x512 : Shape := ⟨2, ![1024, 512]⟩

abbrev nBuf : Space → Nat
  | .hbm => 10
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S2048x2048, .f32⟩
  | .hbm, ⟨3, _⟩ => ⟨S1024x2048, .f32⟩
  | .hbm, ⟨4, _⟩ => ⟨S2048x2048, .f32⟩
  | .hbm, ⟨5, _⟩ => ⟨S1024x2048, .f32⟩
  | .hbm, ⟨6, _⟩ => ⟨S2048x2048, .f32⟩
  | .hbm, ⟨7, _⟩ => ⟨S1024x2048, .f32⟩
  | .hbm, ⟨8, _⟩ => ⟨S8192x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .f32⟩
  | .local _ .vmem, ⟨3, _⟩ => ⟨S2048x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S1024x512, .f32⟩
  | .local _ .vmem, ⟨11, _⟩ => ⟨S1024x512, .f32⟩
  | .local _ .vmem, ⟨12, _⟩ => ⟨S512x512, .f32⟩
  | .local _ .vmem, ⟨13, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  inb_S512x1024_S512x1024_0_0 : ∀ a, (![0, 0] : Fin 2 → Nat) a + S512x1024.size a ≤ S512x1024.size a
  h_S512x1024 : 0 < S512x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S512x512_S512x512 : S512x512.ShapeCasts S512x512
  dot_S512x2048_S2048x512_S512x512_1_0_0_1_n_n_wf : DotDims.WF S512x2048 S2048x512 S512x512 [1] [0] [0] [1] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x2048.size a
  hwx0_1 : ∀ i : grid0.Coords, EltTy.bits .f32 = 32 ∨ (Rect.block (s := S2048x2048) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x2048.size a
  hwx0_2 : ∀ i : grid0.Coords, EltTy.bits .f32 = 32 ∨ (Rect.block (s := S8192x2048) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x2048.size a
  hwx1_0 : ∀ i : grid1.Coords, EltTy.bits .f32 = 32 ∨ (Rect.block (s := S8192x2048) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .f32 = 32 ∨ (Rect.block (s := S8192x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S1024x2048.size a
  hwx1_2 : ∀ i : grid1.Coords, EltTy.bits .f32 = 32 ∨ (Rect.block (s := S1024x2048) S1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S8192x2048.size a
  hwx1_3 : ∀ i : grid1.Coords, EltTy.bits .f32 = 32 ∨ (Rect.block (s := S8192x2048) S512x512.size (cc1_transform_3 i) (hinb1_3 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S8192x1024 : Shape := ⟨2, ![8192, 1024]⟩
abbrev S2048x2048 : Shape := ⟨2, ![2048, 2048]⟩
abbrev S1024x2048 : Shape := ⟨2, ![1024, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S2048x2048, .f32⟩
  | .hbm, ⟨3, _⟩ => ⟨S1024x2048, .f32⟩
  | .hbm, ⟨4, _⟩ => ⟨S2048x2048, .f32⟩
  | .hbm, ⟨5, _⟩ => ⟨S1024x2048, .f32⟩
  | .hbm, ⟨6, _⟩ => ⟨S2048x2048, .f32⟩
  | .hbm, ⟨7, _⟩ => ⟨S8192x2048, .f32⟩
  | .hbm, ⟨8, _⟩ => ⟨S1024x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩

abbrev nD : Nat := 1
abbrev τ : Topo := Topo.v7x

variable {F : FTy → Type} [FloatOps F]

class Facts₀ : Prop where
  bcast_S_S8192x2048 : S_.BroadcastsInDim S8192x2048 (![] : Fin 0 → Fin S8192x2048.rank)
  dot_S8192x2048_S2048x2048_S8192x2048_1_0_0_1_n_n_wf : DotDims.WF S8192x2048 S2048x2048 S8192x2048 [1] [0] [0] [1] [] []
  dot_S8192x1024_S1024x2048_S8192x2048_1_0_0_1_n_n_wf : DotDims.WF S8192x1024 S1024x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf

class Facts : Prop extends Facts₀ where

variable [Facts]
-- ==== Proof.KernelRun.lean ====
/-
  The idealized kernel's run with its result array named.  The program is two products' worth of host
  multiplications followed by two pipelined regions; every weakly fair execution ends with each unscoped
  buffer at the contents the last region leaves.  Read at the result buffer this is the second region's
  output array after all its write-backs; read at an argument it is the argument as launched.
-/
import proofs.«173077_j34969623724718_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the
    second region's output array after its last write-back and the six arguments as launched. -/
theorem result_run : θ_run defs (onTc (τ := τ) (main (F := F))) ⟨m, fun _ => 0, ρ⟩ (fun r => ∀ c : Dev nD,
      r.2.mem ((c.tc : Thread nD τ).loc main_v3) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v3 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Run

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibMatmulBlock.lean ====
/-
  A block of a matrix product is the product of a row block and a column block.  Read the left matrix
  through a map that shifts rows by a row offset and keeps the contracted axis, the right matrix through a
  map that keeps the contracted axis and shifts columns by a column offset: the product of the two blocks
  at (p, q) is the whole product at (row offset + p, column offset + q).  The maps are arbitrary functions
  between index types, constrained only by what they do to each coordinate, so a window's block embedding
  can be passed as it is.
-/
import proofs.«173077_j34969623724718_1_alg».proof.Proof.LibMatmul

noncomputable section

open scoped BigOperators

namespace Cert.LibMatmul

open Idealize.ShloMosaic Idealize.ShloMosaic.ValueIdx

/-- The product of a row block of `X` and a column block of `W`, at an index of the block, is the product of
    `X` and `W` at that index moved by the two offsets. -/
theorem MM_block {A K B a b : Nat} (X : (⟨2, ![A, K]⟩ : Shape).Idx → EReal) (W : (⟨2, ![K, B]⟩ : Shape).Idx → EReal)
    (eX : (⟨2, ![a, K]⟩ : Shape).Idx → (⟨2, ![A, K]⟩ : Shape).Idx)
    (eW : (⟨2, ![K, b]⟩ : Shape).Idx → (⟨2, ![K, B]⟩ : Shape).Idx)
    (eO : (⟨2, ![a, b]⟩ : Shape).Idx → (⟨2, ![A, B]⟩ : Shape).Idx)
    (r0 c0 : Nat)
    (hX0 : ∀ y, (eX y 0).val = r0 + (y 0).val) (hX1 : ∀ y, (eX y 1).val = (y 1).val)
    (hW0 : ∀ y, (eW y 0).val = (y 0).val) (hW1 : ∀ y, (eW y 1).val = c0 + (y 1).val)
    (hO0 : ∀ j, (eO j 0).val = r0 + (j 0).val) (hO1 : ∀ j, (eO j 1).val = c0 + (j 1).val)
    (j : (⟨2, ![a, b]⟩ : Shape).Idx) :
    MM (fun y => X (eX y)) (fun y => W (eW y)) j = MM X W (eO j) := by
  unfold MM
  refine Finset.sum_congr rfl fun k _ => ?_
  have e1 : eX (ix2 (j 0) k) = ix2 (eO j 0) k := by
    funext d; apply Fin.ext
    match d with
    | ⟨0, _⟩ => exact (hX0 _).trans (hO0 j).symm
    | ⟨1, _⟩ => exact hX1 _
  have e2 : eW (ix2 k (j 1)) = ix2 k (eO j 1) := by
    funext d; apply Fin.ext
    match d with
    | ⟨0, _⟩ => exact hW0 _
    | ⟨1, _⟩ => exact (hW1 _).trans (hO1 j).symm
  exact congrArg₂ (· * ·) (congrArg X e1) (congrArg W e2)

end Cert.LibMatmul

end
-- ==== Proof.MsgsValue.lean ====
/-
  The first region: the messages array.  Its grid is 16 row blocks by 4 column blocks; at block (i, j) the body
  multiplies rows 512·i … 512·i + 511 of the left operand (all 2048 columns) by columns 512·j … 512·j + 511 of
  the right operand (all 2048 rows) into a zero accumulator, the two roundings to bf16 on the way in being the
  identity on the extended reals.  So block (i, j) of the output is block (i, j) of the matrix product, the 64
  blocks tile the output, and the array ends holding the whole product of the two arrays the region was
  entered with.
-/
import proofs.«173077_j34969623724718_1_alg».proof.Proof.Gen.KernelIdeal.Frame
import proofs.«173077_j34969623724718_1_alg».proof.Proof.LibMatmulBlock
import Idealize.ShloMosaic.Lib.Pipeline.Value

noncomputable section

namespace Cert.KernelIdeal.Msgs

open Cert.KernelIdeal Cert.KernelIdeal.Gen Idealize.ShloMosaic Idealize.ShloMosaic.TcCoe Idealize.SL.Sem
open Idealize.ShloMosaic.Pipeline (Dat)
open Cert.LibMatmul

variable (V : (c : Dev nD) → (b : Ref sig .tc) → Buf (Elt Ideal) ((c : Thread nD τ).loc b))

theorem hz : (![0, 0] : Fin 2 → Nat) = fun _ => 0 := funext fun a => by fin_cases a <;> rfl

/-- What the body leaves in the output block: the product of the two input blocks. -/
theorem body_eq (x0 : Vec Ideal S512x2048 .f32) (x1 : Vec Ideal S2048x512 .f32) : out0_2 x0 x1 = MM x0 x1 := by
  unfold out0_2
  rw [View.canon_unit_zero hz]
  simp only [View.ld_unit_zero (S := S512x2048) hz, View.ld_unit_zero (S := S2048x512) hz]
  unfold k0_pay1
  dsimp only
  rw [shapeCast_self]
  refine (matmul_zero_eq dot_S512x2048_S2048x512_S512x512_1_0_0_1_n_n rfl rfl rfl rfl rfl rfl none _ _).trans ?_
  rfl

/-- The three index maps over the grid: the left operand's block follows the output's row block and sits at column
    block 0, the right operand's sits at row block 0 and follows the output's column block. -/
theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Every (row block, column block) pair is some grid point's. -/
theorem idx_onto : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-- What point `t` writes back is block `t` of the product of the two arrays as the region finds them. -/
theorem flushed_eq (c : Dev nD) (t : Fin cfg0.N) :
    (dat0 V c).flushed 2 t = ((cfg0.win 2).blk t).view.read (Elt Ideal) (MM (V c main_arg0) (V c main_v0)) := by
  show (cfg0.win 2).cut (grid0.coords t) ((dat0 V c).after 2 t) = _
  rw [after0_2, body_eq]
  obtain ⟨e0, e1, e2, e3⟩ := idx_facts t
  funext j
  show MM (iblk0 V c 0 t) (iblk0 V c 1 t) j = MM (V c main_arg0) (V c main_v0) (((cfg0.win 2).blk t).view.emb j)
  refine MM_block (V c main_arg0) (V c main_v0) ((cfg0.win 0).blk t).view.emb ((cfg0.win 1).blk t).view.emb
    ((cfg0.win 2).blk t).view.emb (win0_2.index t (0 : Fin 2) * 512) (win0_2.index t (1 : Fin 2) * 512) ?_ ?_ ?_ ?_ ?_ ?_ j
  · intro y; show win0_0.index t (0 : Fin 2) * 512 + 1 * (y 0).val = _; rw [e0]; omega
  · intro y; show win0_0.index t (1 : Fin 2) * 2048 + 1 * (y 1).val = _; rw [e1]; omega
  · intro y; show win0_1.index t (0 : Fin 2) * 2048 + 1 * (y 0).val = _; rw [e2]; omega
  · intro y; show win0_1.index t (1 : Fin 2) * 512 + 1 * (y 1).val = _; rw [e3]; omega
  · intro y; show win0_2.index t (0 : Fin 2) * 512 + 1 * (y 0).val = _; omega
  · intro y; show win0_2.index t (1 : Fin 2) * 512 + 1 * (y 1).val = _; omega

/-- An index of the array is in point `t`'s block iff each coordinate is in the block's range on its axis. -/
theorem mem_blk (t : Fin cfg0.N) (i : S8192x2048.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v2).slice (win0_2.rect t)).set ↔ _
  rw [View.set_slice_whole, Rect.mem_set_unit]
  exact Iff.rfl

/-- The blocks cover the array: entry (r, e) lies in the block of row block r / 512 and column block e / 512. -/
theorem cover (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ := idx_onto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- After the region's last write-back the output array is the matrix product of the two arrays it was entered with. -/
theorem final (c : Dev nD) : (dat0 V c).arrAt 2 cfg0.N = MM (V c main_arg0) (V c main_v0) :=
  (dat0 V c).arrAt_eq_of_cover 2 (MM (V c main_arg0) (V c main_v0)) (fun t _ => flushed_eq V c t) cover

end Cert.KernelIdeal.Msgs

end
-- ==== Proof.Spec.lean ====
/-
  The layer both programs compute, as one function of the six argument arrays over the extended reals.
  With x of shape [8192, 2048], llr of shape [8192, 1024], an edge-to-edge weight matrix and its 0/1 mask of
  shape [2048, 2048] and a variable-to-edge weight matrix and its mask of shape [1024, 2048]:

      out(r, e) = tanh( 1/2 · min(10, max(-10, (x · (mask ∘ W))(r, e) + (llr · (mask' ∘ W'))(r, e) )) )

  where ∘ is the entrywise product and · the matrix product.  The three literals are kept as the words both
  programs print (0.5, 10 and -10 in binary32); nothing below evaluates them.
-/
import proofs.«173077_j34969623724718_1_alg».proof.Proof.LibMatmul
import Idealize.ShloMosaic.PureOps.Ideal

noncomputable section

namespace Cert.Layer

open Idealize.ShloMosaic Cert.LibMatmul

/-- The epilogue on one entry: clip to [-10, 10], halve, take the hyperbolic tangent. -/
def clipTanh (v : EReal) : EReal :=
  Ideal.tanh (Ideal.ofBits .f32 0x3F000000#32 * min (Ideal.ofBits .f32 0x41200000#32) (max (Ideal.ofBits .f32 0xC1200000#32) v))

/-- A weight matrix under its mask, entry by entry (mask first, as both programs multiply). -/
def masked {s : Shape} (mask w : s.Idx → EReal) : s.Idx → EReal := fun k => mask k * w k

/-- The layer: the epilogue of the sum of the two masked matrix products. -/
def layer (x : (⟨2, ![8192, 2048]⟩ : Shape).Idx → EReal) (llr : (⟨2, ![8192, 1024]⟩ : Shape).Idx → EReal)
    (wOdd : (⟨2, ![2048, 2048]⟩ : Shape).Idx → EReal) (wLlr : (⟨2, ![1024, 2048]⟩ : Shape).Idx → EReal)
    (mOdd : (⟨2, ![2048, 2048]⟩ : Shape).Idx → EReal) (mSkip : (⟨2, ![1024, 2048]⟩ : Shape).Idx → EReal) :
    (⟨2, ![8192, 2048]⟩ : Shape).Idx → EReal :=
  fun i => clipTanh (MM x (masked mOdd wOdd) i + MM llr (masked mSkip wLlr) i)

end Cert.Layer

end
-- ==== Proof.OutValue.lean ====
/-
  The second region: the result array.  The grid is again 16 row blocks by 4 column blocks.  At block (i, j) the
  body multiplies rows 512·i … 512·i + 511 of the log-likelihood array (all 1024 columns) by columns
  512·j … 512·j + 511 of the masked skip weights (all 1024 rows) into a zero accumulator, adds block (i, j) of
  the messages array in front, clips the sum to [-10, 10], halves it and takes the hyperbolic tangent.  So
  block (i, j) of the output is block (i, j) of ONE function of the three arrays the region was entered with —
  the epilogue of (messages + matrix product), entry by entry — and the 64 blocks tile the output.
-/
import proofs.«173077_j34969623724718_1_alg».proof.Proof.Gen.KernelIdeal.Frame
import proofs.«173077_j34969623724718_1_alg».proof.Proof.LibMatmulBlock
import proofs.«173077_j34969623724718_1_alg».proof.Proof.Spec
import Idealize.ShloMosaic.Lib.Pipeline.Value

noncomputable section

namespace Cert.KernelIdeal.Out

open Cert.KernelIdeal Cert.KernelIdeal.Gen Idealize.ShloMosaic Idealize.ShloMosaic.TcCoe Idealize.SL.Sem
open Idealize.ShloMosaic.Pipeline (Dat)
open Cert.LibMatmul Cert.Layer

variable (V : (c : Dev nD) → (b : Ref sig .tc) → Buf (Elt Ideal) ((c : Thread nD τ).loc b))

theorem hz : (![0, 0] : Fin 2 → Nat) = fun _ => 0 := funext fun a => by fin_cases a <;> rfl

/-- The region's result as one function of the messages array, the log-likelihood array and the masked skip
    weights: the epilogue of their sum, entry by entry. -/
def activated (msgs : S8192x2048.Idx → EReal) (llr : S8192x1024.Idx → EReal) (w : S1024x2048.Idx → EReal) :
    S8192x2048.Idx → EReal := fun i => clipTanh (msgs i + MM llr w i)

/-- What the body leaves in the output block, entry by entry: the epilogue of the messages block plus the product of
    the two other input blocks. -/
theorem body_eq (x0 : Vec Ideal S512x512 .f32) (x1 : Vec Ideal S512x1024 .f32) (x2 : Vec Ideal S1024x512 .f32) :
    out1_3 x0 x1 x2 = fun j => clipTanh (x0 j + MM x1 x2 j) := by
  unfold out1_3
  rw [View.canon_unit_zero hz]
  simp only [View.ld_unit_zero (S := S512x1024) hz, View.ld_unit_zero (S := S1024x512) hz, View.ld_unit_zero (S := S512x512) hz]
  unfold k1_pay1
  dsimp only
  rw [shapeCast_self, shapeCast_self]
  funext j
  have hm := congrFun (matmul_zero_eq dot_S512x1024_S1024x512_S512x512_1_0_0_1_n_n rfl rfl rfl rfl rfl rfl none
    (truncf .bf16 x1 bitsLt_bf16_f32) (truncf .bf16 x2 bitsLt_bf16_f32)) j
  show Ideal.tanh (Ideal.ofBits .f32 0x3F000000#32 * min (Ideal.ofBits .f32 0x41200000#32) (max (Ideal.ofBits .f32 0xC1200000#32)
    (x0 j + FloatOps.matmul dot_S512x1024_S1024x512_S512x512_1_0_0_1_n_n none (truncf .bf16 x1 bitsLt_bf16_f32) (truncf .bf16 x2 bitsLt_bf16_f32) (constant S512x512 .f32 0x00000000#32) j))) = _
  rw [hm]
  rfl

/-- One entry of a block: if the messages block's entry is the messages array's at the embedded index, and the blocks'
    product is the arrays' product there, the body's value is `activated` there. -/
theorem block_eq (msgs : S8192x2048.Idx → EReal) (llr : S8192x1024.Idx → EReal) (w : S1024x2048.Idx → EReal)
    (x0 : S512x512.Idx → EReal) (x1 : S512x1024.Idx → EReal) (x2 : S1024x512.Idx → EReal)
    (e : S512x512.Idx → S8192x2048.Idx) (j : S512x512.Idx)
    (h0 : x0 j = msgs (e j)) (h12 : MM x1 x2 j = MM llr w (e j)) :
    clipTanh (x0 j + MM x1 x2 j) = activated msgs llr w (e j) := by
  unfold activated
  rw [h0, h12]

/-- The index maps over the grid: the messages block is the output's block; the log-likelihood block follows the
    output's row block at column block 0; the weights' block sits at row block 0 and follows the output's column block. -/
theorem idx_facts : ∀ t : Fin cfg1.N, win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = 0
    ∧ win1_2.index t (0 : Fin 2) = 0 ∧ win1_2.index t (1 : Fin 2) = win1_3.index t (1 : Fin 2) :=
  (by decide +kernel : ∀ t : Fin grid1.N, _)

/-- Every (row block, column block) pair is some grid point's. -/
theorem idx_onto : ∀ (q0 : Fin 16) (q1 : Fin 4), ∃ t : Fin cfg1.N, win1_3.index t = ![q0.val, q1.val] :=
  (by decide +kernel : ∀ (q0 : Fin 16) (q1 : Fin 4), ∃ t : Fin grid1.N, win1_3.index t = ![q0.val, q1.val])

/-- What point `t` writes back is block `t` of `activated` of the three arrays as the region finds them. -/
theorem flushed_eq (c : Dev nD) (t : Fin cfg1.N) :
    (dat1 V c).flushed 3 t = ((cfg1.win 3).blk t).view.read (Elt Ideal) (activated (V c main_v2) (V c main_arg1) (V c main_v1)) := by
  show (cfg1.win 3).cut (grid1.coords t) ((dat1 V c).after 3 t) = _
  rw [after1_3, body_eq]
  obtain ⟨e0, e1, e2, e3, e4, e5⟩ := idx_facts t
  funext j
  refine block_eq (V c main_v2) (V c main_arg1) (V c main_v1) (iblk1 V c 0 t) (iblk1 V c 1 t) (iblk1 V c 2 t)
    ((cfg1.win 3).blk t).view.emb j ?_ ?_
  · show V c main_v2 (((cfg1.win 0).blk t).view.emb j) = _
    refine congrArg (V c main_v2) (funext fun a => Fin.ext ?_)
    match a with
    | ⟨0, _⟩ => show win1_0.index t (0 : Fin 2) * 512 + 1 * (j 0).val = win1_3.index t (0 : Fin 2) * 512 + 1 * (j 0).val; rw [e0]
    | ⟨1, _⟩ => show win1_0.index t (1 : Fin 2) * 512 + 1 * (j 1).val = win1_3.index t (1 : Fin 2) * 512 + 1 * (j 1).val; rw [e1]
  · refine MM_block (V c main_arg1) (V c main_v1) ((cfg1.win 1).blk t).view.emb ((cfg1.win 2).blk t).view.emb
      ((cfg1.win 3).blk t).view.emb (win1_3.index t (0 : Fin 2) * 512) (win1_3.index t (1 : Fin 2) * 512) ?_ ?_ ?_ ?_ ?_ ?_ j
    · intro y; show win1_1.index t (0 : Fin 2) * 512 + 1 * (y 0).val = _; rw [e2]; omega
    · intro y; show win1_1.index t (1 : Fin 2) * 1024 + 1 * (y 1).val = _; rw [e3]; omega
    · intro y; show win1_2.index t (0 : Fin 2) * 1024 + 1 * (y 0).val = _; rw [e4]; omega
    · intro y; show win1_2.index t (1 : Fin 2) * 512 + 1 * (y 1).val = _; rw [e5]; omega
    · intro y; show win1_3.index t (0 : Fin 2) * 512 + 1 * (y 0).val = _; omega
    · intro y; show win1_3.index t (1 : Fin 2) * 512 + 1 * (y 1).val = _; omega

/-- An index of the array is in point `t`'s block iff each coordinate is in the block's range on its axis. -/
theorem mem_blk (t : Fin cfg1.N) (i : S8192x2048.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v3).slice (win1_3.rect t)).set ↔ _
  rw [View.set_slice_whole, Rect.mem_set_unit]
  exact Iff.rfl

/-- The blocks cover the array: entry (r, e) lies in the block of row block r / 512 and column block e / 512. -/
theorem cover (i : S8192x2048.Idx) : ∃ t : Fin cfg1.N, (cfg1.win 3).flush t = true ∧ i ∈ ((cfg1.win 3).blk t).view.set := by
  have hi0 : (i 0).val < 8192 := (i 0).isLt
  have hi1 : (i 1).val < 2048 := (i 1).isLt
  obtain ⟨t, ht⟩ := idx_onto ⟨(i 0).val / 512, by omega⟩ ⟨(i 1).val / 512, by omega⟩
  have q0 : win1_3.index t (0 : Fin 2) = (i 0).val / 512 := congrFun ht 0
  have q1 : win1_3.index t (1 : Fin 2) = (i 1).val / 512 := congrFun ht 1
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 512 ≤ (i 1).val ∧ (i 1).val < win1_3.index t (1 : Fin 2) * 512 + 512; omega

/-- After the region's last write-back the output array is `activated` of the three arrays it was entered with. -/
theorem final (c : Dev nD) : (dat1 V c).arrAt 3 cfg1.N = activated (V c main_v2) (V c main_arg1) (V c main_v1) :=
  (dat1 V c).arrAt_eq_of_cover 3 (activated (V c main_v2) (V c main_arg1) (V c main_v1)) (fun t _ => flushed_eq V c t) cover

end Cert.KernelIdeal.Out

end
-- ==== Proof.KernelValue.lean ====
/-
  The idealized kernel's result array is the layer of the six arguments.  Before the first region the host
  multiplies each weight matrix by its mask, entry by entry, and touches no argument.  The first region leaves the
  product of x with the masked edge weights in the messages array and nothing else changed; the second region is
  entered with that array, the untouched log-likelihood argument and the masked skip weights, and leaves the
  epilogue of (messages + product) in the result array.
-/
import proofs.«173077_j34969623724718_1_alg».proof.Proof.KernelRun
import proofs.«173077_j34969623724718_1_alg».proof.Proof.MsgsValue
import proofs.«173077_j34969623724718_1_alg».proof.Proof.OutValue
import proofs.«173077_j34969623724718_1_alg».proof.Proof.Spec
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.StableHlo
open Cert.LibMatmul Cert.Layer

variable (m : (ℓ : Loc nD τ sig) → Buf (Elt Ideal) ℓ) (ρ : Dev nD → PrngReg)

/-! ## The arrays the first region is entered with -/

/-- The host's two multiplications leave x as launched. -/
theorem entry0_x (c : Dev nD) : V1 m ρ c main_arg0 = m ((c : Thread nD τ).loc main_arg0) := by
  show StableHlo.after hostOps0 (W0 m ρ c) (Proc.devRef .tc main_arg0) = _
  after_results

/-- The first host multiplication: the edge weights under their mask. -/
theorem entry0_w (c : Dev nD) :
    (V1 m ρ c main_v0 : S2048x2048.Idx → EReal) = masked (m ((c : Thread nD τ).loc main_arg4)) (m ((c : Thread nD τ).loc main_arg2)) := by
  show StableHlo.after hostOps0 (W0 m ρ c) (Proc.devRef .tc main_v0) = _
  after_results
  rfl

/-- The host's two multiplications leave llr as launched. -/
theorem entry0_llr (c : Dev nD) : V1 m ρ c main_arg1 = m ((c : Thread nD τ).loc main_arg1) := by
  show StableHlo.after hostOps0 (W0 m ρ c) (Proc.devRef .tc main_arg1) = _
  after_results

/-- The second host multiplication: the skip weights under their mask. -/
theorem entry0_wskip (c : Dev nD) :
    (V1 m ρ c main_v1 : S1024x2048.Idx → EReal) = masked (m ((c : Thread nD τ).loc main_arg5)) (m ((c : Thread nD τ).loc main_arg3)) := by
  show StableHlo.after hostOps0 (W0 m ρ c) (Proc.devRef .tc main_v1) = _
  after_results
  rfl

/-! ## The arrays the second region is entered with -/

/-- The messages array: the product of x with the masked edge weights. -/
theorem entry1_msgs (c : Dev nD) :
    (V2 m ρ c main_v2 : S8192x2048.Idx → EReal)
      = MM (m ((c : Thread nD τ).loc main_arg0)) (masked (m ((c : Thread nD τ).loc main_arg4)) (m ((c : Thread nD τ).loc main_arg2))) := by
  refine (W2_arr m ρ c 2).trans ((Msgs.final (V1 m ρ) c).trans ?_)
  rw [entry0_x, entry0_w]

/-- The first region does not touch llr. -/
theorem entry1_llr (c : Dev nD) : V2 m ρ c main_arg1 = m ((c : Thread nD τ).loc main_arg1) :=
  (W2_of_ne m ρ c main_arg1 (by decide)).trans (entry0_llr m ρ c)

/-- Nor the masked skip weights. -/
theorem entry1_wskip (c : Dev nD) :
    (V2 m ρ c main_v1 : S1024x2048.Idx → EReal) = masked (m ((c : Thread nD τ).loc main_arg5)) (m ((c : Thread nD τ).loc main_arg3)) :=
  (W2_of_ne m ρ c main_v1 (by decide)).trans (entry0_wskip m ρ c)

/-! ## The result -/

/-- The result array after the second region's last write-back is the layer of the six arguments. -/
theorem result (c : Dev nD) :
    (dat1 (V2 m ρ) c).arrAt 3 cfg1.N
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [Out.final (V2 m ρ) c, entry1_msgs, entry1_llr, entry1_wskip]
  rfl

/-- The run, read: the result buffer ends at the layer of the arguments, the arguments as launched. -/
theorem run : θ_run defs (onTc (τ := τ) (main (F := Ideal))) ⟨m, fun _ => 0, ρ⟩ (fun r => ∀ c : Dev nD,
      r.2.mem ((c.tc : Thread nD τ).loc main_v3)
        = layer (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (Run.result_run m ρ)

end Cert.KernelIdeal.Result

end
-- ==== Proof.RefValue.lean ====
/-
  The reference's result is the layer.  Its run ends with the result at tanh(1/2 · min(10, max(-10, P + Q))) where P
  is the host's product of x with the masked edge weights and Q its product of llr with the masked skip weights;
  on the extended reals each host product is the plain matrix product, and the three broadcast constants are the
  three words of the epilogue.
-/
import proofs.«173077_j34969623724718_1_alg».proof.Proof.Gen.ReferenceIdeal.Read
import proofs.«173077_j34969623724718_1_alg».proof.Proof.Spec

noncomputable section

namespace Cert.ReferenceIdeal.RefValue

open Cert.ReferenceIdeal Cert.ReferenceIdeal.Gen Cert.ReferenceIdeal.Read Idealize.ShloMosaic
open Cert.LibMatmul Cert.Layer

/-- The reference's last stage, as a function of the six arguments, is the layer. -/
theorem result_eq (x0 : (⟨S8192x2048, .f32⟩ : BufTy).Contents (Elt Ideal)) (x1 : (⟨S8192x1024, .f32⟩ : BufTy).Contents (Elt Ideal))
    (x2 : (⟨S2048x2048, .f32⟩ : BufTy).Contents (Elt Ideal)) (x3 : (⟨S1024x2048, .f32⟩ : BufTy).Contents (Elt Ideal))
    (x4 : (⟨S2048x2048, .f32⟩ : BufTy).Contents (Elt Ideal)) (x5 : (⟨S1024x2048, .f32⟩ : BufTy).Contents (Elt Ideal)) :
    val_main_v8 (F := Ideal) x0 x1 x2 x3 x4 x5 = layer x0 x1 x2 x3 x4 x5 := by
  have h1 : val_main_v1 (F := Ideal) x0 x2 x4 = MM x0 (masked x4 x2) :=
    dotGeneral_eq dot_S8192x2048_S2048x2048_S8192x2048_1_0_0_1_n_n rfl rfl rfl rfl rfl rfl none .single x0 (val_main_v0 (F := Ideal) x2 x4)
  have h3 : val_main_v3 (F := Ideal) x1 x3 x5 = MM x1 (masked x5 x3) :=
    dotGeneral_eq dot_S8192x1024_S1024x2048_S8192x2048_1_0_0_1_n_n rfl rfl rfl rfl rfl rfl none .single x1 (val_main_v2 (F := Ideal) x3 x5)
  funext i
  show Ideal.tanh (Ideal.ofBits .f32 0x3F000000#32 * min (Ideal.ofBits .f32 0x41200000#32) (max (Ideal.ofBits .f32 0xC1200000#32)
    (val_main_v1 (F := Ideal) x0 x2 x4 i + val_main_v3 (F := Ideal) x1 x3 x5 i))) = _
  rw [h1, h3]
  rfl

end Cert.ReferenceIdeal.RefValue

end
-- ==== Proof.lean ====
/-
  The kernel and its reference compute one layer of a message-passing decoder: for x of shape [8192, 2048], llr
  of shape [8192, 1024], two weight matrices and their 0/1 masks,

      out = tanh( 1/2 · clip( x · (mask ∘ W) + llr · (mask' ∘ W'), -10, 10 ) ).

  The kernel multiplies the weights by their masks on the host, computes x · (mask ∘ W) in one pipelined region
  (16 × 4 blocks of 512 × 512, the contracted axis whole in every block, the operands rounded to bf16 on the way
  into the matrix unit) and the second product together with the sum, the clip and the tanh in a second region
  of the same grid.  The reference does the same with two host products.  On the extended reals a change of
  float format is the identity and both a matrix-unit product into a zero accumulator and the host's product
  are the plain sum over the contracted axis, so both programs compute the same function of the six arguments,
  entry by entry, with the same order of every sum and product: no algebraic law beyond the definitions is used,
  and the precondition is never opened.

  The modules: Spec states the layer; RefValue reads the reference's run as the layer; MsgsValue and OutValue
  read each region's output array, after all its write-backs, as one function of the arrays the region was
  entered with; KernelRun names the result buffer at the end of the run; KernelValue chains the host stretch and
  the two regions.
-/
import proofs.«173077_j34969623724718_1_alg».proof.Defs
import proofs.«173077_j34969623724718_1_alg».proof.Proof.Gen.Kernel
import proofs.«173077_j34969623724718_1_alg».proof.Proof.Gen.Kernel.Frame
import proofs.«173077_j34969623724718_1_alg».proof.Proof.Gen.KernelIdeal
import proofs.«173077_j34969623724718_1_alg».proof.Proof.Gen.KernelIdeal.Frame
import proofs.«173077_j34969623724718_1_alg».proof.Proof.Gen.ReferenceIdeal
import proofs.«173077_j34969623724718_1_alg».proof.Proof.Gen.ReferenceIdeal.Run
import proofs.«173077_j34969623724718_1_alg».proof.Proof.Gen.ReferenceIdeal.Read
import proofs.«173077_j34969623724718_1_alg».proof.Proof.Gen.Pre_finite_inputs
import proofs.«173077_j34969623724718_1_alg».proof.Proof.KernelValue
import proofs.«173077_j34969623724718_1_alg».proof.Proof.RefValue
import Idealize.ShloMosaic.Adequacy
import Idealize.ShloMosaic.Init

noncomputable section

namespace Cert.Proof

open Idealize.ShloMosaic Idealize.SL.Sem

/-- The printed kernel terminates without a fault and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the layer of the (agreeing) arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
